-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S65536x256 .f32) (main_arg1 : FVec F S512x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S65536x256 : Shape := ⟨2, ![65536, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S65536x512 : Shape := ⟨2, ![65536, 512]⟩
abbrev S512x65536 : Shape := ⟨2, ![512, 65536]⟩
abbrev S2048x256 : Shape := ⟨2, ![2048, 256]⟩
abbrev S2048x512 : Shape := ⟨2, ![2048, 512]⟩
abbrev S512x2048 : Shape := ⟨2, ![512, 2048]⟩
abbrev S2048 : Shape := ⟨1, ![2048]⟩
abbrev S2048x1 : Shape := ⟨2, ![2048, 1]⟩
abbrev S1x2048 : Shape := ⟨2, ![1, 2048]⟩

abbrev nBuf : Space → Nat
  | .hbm => 9
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512x256, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S65536x512, .f32⟩
  | .hbm, ⟨8, _⟩ => ⟨S512x65536, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S2048x256_S2048x256_0_0 : ∀ a, (![0, 0] : Fin 2 → Nat) a + S2048x256.size a ≤ S2048x256.size a
  h_S2048x256 : 0 < S2048x256.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  reduces_S2048x256_S2048 : S2048x256.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  transposes_S1x512_p1_0_S512x1 : S1x512.Transposes [1, 0] S512x1
  transposes_S2048x1_p1_0_S1x2048 : S2048x1.Transposes [1, 0] S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S2048x256_S512x256_S2048x512_1_1_0_0_n_n_wf : DotDims.WF S2048x256 S512x256 S2048x512 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x65536.size a
  hwx0_4 : ∀ i : grid0.Coords, EltTy.bits .f32 = 32 ∨ (Rect.block (s := S512x65536) S512x2048.size (cc0_transform_4 i) (hinb0_4 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S_ : Shape := ⟨0, ![]⟩
abbrev S65536 : Shape := ⟨1, ![65536]⟩
abbrev S512 : Shape := ⟨1, ![512]⟩
abbrev S256x512 : Shape := ⟨2, ![256, 512]⟩
abbrev S65536x512 : Shape := ⟨2, ![65536, 512]⟩
abbrev S65536x1 : Shape := ⟨2, ![65536, 1]⟩
abbrev S1x512 : Shape := ⟨2, ![1, 512]⟩
abbrev S512x1 : Shape := ⟨2, ![512, 1]⟩
abbrev S1x65536 : Shape := ⟨2, ![1, 65536]⟩
abbrev S512x65536 : Shape := ⟨2, ![512, 65536]⟩

abbrev nBuf : Space → Nat
  | .hbm => 29
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S512x256, .f32⟩
  | .hbm, ⟨6, _⟩ => ⟨S_, .f32⟩
  | .hbm, ⟨7, _⟩ => ⟨S512, .f32⟩
  | .hbm, ⟨8, _⟩ => ⟨S256x512, .f32⟩
  | .hbm, ⟨9, _⟩ => ⟨S65536x512, .f32⟩
  | .hbm, ⟨10, _⟩ => ⟨S65536x1, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S_, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S512x1, .f32⟩
  | .hbm, ⟨20, _⟩ => ⟨S1x65536, .f32⟩
  | .hbm, ⟨21, _⟩ => ⟨S512x65536, .f32⟩
  | .hbm, ⟨22, _⟩ => ⟨S512x65536, .f32⟩
  | .hbm, ⟨23, _⟩ => ⟨S512x65536, .f32⟩
  | .hbm, ⟨24, _⟩ => ⟨S512x65536, .f32⟩
  | .hbm, ⟨25, _⟩ => ⟨S_, .f32⟩
  | .hbm, ⟨26, _⟩ => ⟨S512x65536, .f32⟩
  | .hbm, ⟨27, _⟩ => ⟨S512x65536, .f32⟩
  | .hbm, ⟨28, _⟩ => ⟨S512x65536, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  reducesTo_S512x256_S512_d1 : S512x256.ReducesTo [1] S512
  transposes_S512x256_S256x512_1_0 : S512x256.Transposes [1, 0] S256x512
  bcast_S65536_S65536x1_0 : S65536.BroadcastsInDim S65536x1 (![0] : Fin 1 → Fin S65536x1.rank)
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S512_S512x1_0 : S512.BroadcastsInDim S512x1 (![0] : Fin 1 → Fin S512x1.rank)
  bcast_S65536_S1x65536_1 : S65536.BroadcastsInDim S1x65536 (![1] : Fin 1 → Fin S1x65536.rank)
  bcast_S512x1_S512x65536_0_1 : S512x1.BroadcastsInDim S512x65536 (![0, 1] : Fin 2 → Fin S512x65536.rank)
  bcast_S1x65536_S512x65536_0_1 : S1x65536.BroadcastsInDim S512x65536 (![0, 1] : Fin 2 → Fin S512x65536.rank)
  transposes_S65536x512_S512x65536_1_0 : S65536x512.Transposes [1, 0] S512x65536
  bcast_S_S512x65536 : S_.BroadcastsInDim S512x65536 (![] : Fin 0 → Fin S512x65536.rank)
  dot_S65536x256_S256x512_S65536x512_1_0_0_1_n_n_wf : DotDims.WF S65536x256 S256x512 S65536x512 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf

class Facts : Prop extends Facts₀ where

variable [Facts]
-- ==== Proof.Spec.lean ====
/-
  Squared Euclidean distances between the rows of two matrices, over the extended reals, by the expansion
  |f|² + |p|² − 2 f·p: the squared norm of a row, the inner product of two rows, and the two distance tables — one entry
  per (feature row, prototype row), and the same table with the two roles exchanged. The inner product of two rows does
  not depend on which row is written first (multiplication of extended reals is commutative, and the sum runs over the
  same coordinates), which is all that relates the second table computed from p·f to the one computed from f·p.
-/
import Idealize.ShloMosaic.PureOps.Ideal
import Idealize.ShloMosaic.PureOps.Ideal.Laws
import Idealize.ShloMosaic.Lib.ValueIdx

open scoped BigOperators

noncomputable section

namespace Cert.Cdist

open Idealize.ShloMosaic Idealize.ShloMosaic.ValueIdx

/-- The squared norm of row `r` of an `[n, d]` matrix: the sum of the squares of the row's `d` entries. -/
def rowSq {n d : ℕ} (x : (⟨2, ![n, d]⟩ : Shape).Idx → EReal) (r : Fin n) : EReal :=
  ∑ k : Fin d, x (ix2 r k) * x (ix2 r k)

/-- The inner product of row `r` of `x` with row `q` of `y`, both of length `d`. -/
def rowDot {n n' d : ℕ} (x : (⟨2, ![n, d]⟩ : Shape).Idx → EReal) (y : (⟨2, ![n', d]⟩ : Shape).Idx → EReal)
    (r : Fin n) (q : Fin n') : EReal :=
  ∑ k : Fin d, x (ix2 r k) * y (ix2 q k)

/-- The inner product is symmetric: each term's two factors commute. -/
theorem rowDot_comm {n n' d : ℕ} (x : (⟨2, ![n, d]⟩ : Shape).Idx → EReal) (y : (⟨2, ![n', d]⟩ : Shape).Idx → EReal)
    (r : Fin n) (q : Fin n') : rowDot x y r q = rowDot y x q r :=
  Finset.sum_congr rfl fun _ _ => mul_comm _ _

/-- The float literal 2.0, kept as its binary word: both programs multiply by the same word, so it is never evaluated. -/
def two : EReal := Ideal.ofBits .f32 0x40000000#32

/-- One entry of a distance table from the two squared norms `a`, `b` and the inner product `c`: (a + b) − 2·c. -/
def dist (a b c : EReal) : EReal := (a + b) - two * c

/-- The table of squared distances from each of the 65536 feature rows to each of the 512 prototype rows. -/
def toProtos (f : (⟨2, ![65536, 256]⟩ : Shape).Idx → EReal) (p : (⟨2, ![512, 256]⟩ : Shape).Idx → EReal) :
    (⟨2, ![65536, 512]⟩ : Shape).Idx → EReal :=
  fun i => dist (rowSq f (i 0)) (rowSq p (i 1)) (rowDot f p (i 0) (i 1))

/-- The table of squared distances from each prototype row to each feature row: the prototype's norm first, the inner
    product with the prototype's row first. -/
def toLatents (f : (⟨2, ![65536, 256]⟩ : Shape).Idx → EReal) (p : (⟨2, ![512, 256]⟩ : Shape).Idx → EReal) :
    (⟨2, ![512, 65536]⟩ : Shape).Idx → EReal :=
  fun i => dist (rowSq p (i 0)) (rowSq f (i 1)) (rowDot p f (i 0) (i 1))

end Cert.Cdist

end
-- ==== Proof.RefSpec.lean ====
/-
  The reference program's two results are the two distance tables. Read one operation at a time, entry (r, q) of its
  first result is (|f_r|² + |p_q|²) − 2·(f_r · p_q): each squared norm is the host's sum of one row of the elementwise
  square, started from the zero word, and the cross term is the matrix product of the features with the transposed
  prototypes, whose (k, q) entry is the prototypes' (q, k) entry. Entry (q, r) of its second result adds the same two norms
  in the other order and takes the cross term from the transposed product, that is again f_r · p_q; the table states it
  as p_q · f_r, which is the same sum.
-/
import proofs.«153007_j24790551232582_2_alg».proof.Proof.Gen.ReferenceIdeal.Read
import proofs.«153007_j24790551232582_2_alg».proof.Proof.Spec

open scoped BigOperators

noncomputable section

namespace Cert.Cdist.Ref

open Cert.ReferenceIdeal Cert.ReferenceIdeal.Read Idealize.ShloMosaic Idealize.ShloMosaic.ValueIdx Cert.Cdist

variable (f : (⟨S65536x256, .f32⟩ : BufTy).Contents (Elt Ideal)) (p : (⟨S512x256, .f32⟩ : BufTy).Contents (Elt Ideal))

/-- A row's squared norm as the reference takes it for the features: the zero word plus the row's sum of squares. -/
theorem featSq_apply (r : Fin 65536) : val_main_v1 (F := Ideal) f (ix1 r) = rowSq f r := by
  rw [val_main_v1_apply]
  simp only [val_main_v0_apply, val_main_cst_apply, Ideal.ofBits_def, Ideal.mulf_def, Ideal.ofBits_zero_f32, zero_add]
  exact Finset.sum_congr rfl fun k _ => by
    have e : idx_main_v1 (ix1 r) k = ix2 r k := funext fun a => Fin.ext (by match a with | ⟨0, _⟩ => rfl | ⟨1, _⟩ => rfl)
    rw [e]

/-- The same for the prototypes. -/
theorem protoSq_apply (q : Fin 512) : val_main_v3 (F := Ideal) p (ix1 q) = rowSq p q := by
  rw [val_main_v3_apply]
  simp only [val_main_v2_apply, val_main_cst_0_apply, Ideal.ofBits_def, Ideal.mulf_def, Ideal.ofBits_zero_f32, zero_add]
  exact Finset.sum_congr rfl fun k _ => by
    have e : idx_main_v3 (ix1 q) k = ix2 q k := funext fun a => Fin.ext (by match a with | ⟨0, _⟩ => rfl | ⟨1, _⟩ => rfl)
    rw [e]

/-- The reference's matrix product at (r, q) is the inner product of feature row r with prototype row q. -/
theorem cross_apply (r : Fin 65536) (q : Fin 512) : val_main_v5 (F := Ideal) f p (ix2 r q) = rowDot f p r q := by
  rw [val_main_v5_apply]
  exact Finset.sum_congr rfl fun k _ => by
    rw [val_main_v4_apply]
    have el : lidx_main_v5 (ix2 r q) k = ix2 r k := funext fun a => Fin.ext (by match a with | ⟨0, _⟩ => rfl | ⟨1, _⟩ => rfl)
    have er : idx_main_v4 (ridx_main_v5 (ix2 r q) k) = ix2 q k := funext fun a => Fin.ext (by match a with | ⟨0, _⟩ => rfl | ⟨1, _⟩ => rfl)
    rw [el, er]

/-- The reference's first result is the table of distances to the prototypes. -/
theorem toProtos_eq : val_main_v13 (F := Ideal) f p = toProtos f p := by
  funext i
  obtain ⟨r, q, rfl⟩ : ∃ (r : Fin 65536) (q : Fin 512), i = ix2 r q := ⟨i 0, i 1, eq_ix2 i⟩
  rw [val_main_v13_apply, val_main_v10_apply, val_main_v12_apply, val_main_v8_apply, val_main_v6_apply, val_main_v9_apply,
    val_main_v7_apply, val_main_v11_apply, val_main_cst_1_apply]
  have e1 : idx_main_v6 (idx_main_v8 (ix2 r q)) = ix1 r := funext fun a => Fin.ext (by match a with | ⟨0, _⟩ => rfl)
  have e2 : idx_main_v7 (idx_main_v9 (ix2 r q)) = ix1 q := funext fun a => Fin.ext (by match a with | ⟨0, _⟩ => rfl)
  rw [e1, e2, featSq_apply, protoSq_apply, cross_apply]
  rfl

/-- The reference's second result is the table of distances to the features. -/
theorem toLatents_eq : val_main_v22 (F := Ideal) f p = toLatents f p := by
  funext i
  obtain ⟨q, r, rfl⟩ : ∃ (q : Fin 512) (r : Fin 65536), i = ix2 q r := ⟨i 0, i 1, eq_ix2 i⟩
  rw [val_main_v22_apply, val_main_v18_apply, val_main_v21_apply, val_main_v16_apply, val_main_v14_apply, val_main_v17_apply,
    val_main_v15_apply, val_main_v20_apply, val_main_cst_2_apply, val_main_v19_apply]
  have e1 : idx_main_v14 (idx_main_v16 (ix2 q r)) = ix1 q := funext fun a => Fin.ext (by match a with | ⟨0, _⟩ => rfl)
  have e2 : idx_main_v15 (idx_main_v17 (ix2 q r)) = ix1 r := funext fun a => Fin.ext (by match a with | ⟨0, _⟩ => rfl)
  have e3 : idx_main_v19 (ix2 q r) = ix2 r q := funext fun a => Fin.ext (by match a with | ⟨0, _⟩ => rfl | ⟨1, _⟩ => rfl)
  rw [e1, e2, e3, featSq_apply, protoSq_apply, cross_apply, rowDot_comm]
  rfl

end Cert.Cdist.Ref

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.Payload.lean ====
/-
  What the kernel body stores, read at coordinates, over the extended reals. The body loads a block of 2048 feature
  rows, all 512 prototype rows, and a row of 512 prototype squared norms. Its first store holds, at (r, q),
  (|f_r|² + n_q) − 2·(f_r · p_q): the lane sum of the block's elementwise square kept as a column and broadcast along
  the rows, the loaded norms' row broadcast along the columns, and the matrix product of the block with the prototypes
  contracting both second axes into a zero accumulator (rounding to bf16 is the identity here). Its second store holds,
  at (q, r), (n_q + |f_r|²) − 2·(p_q · f_r): the two small transposes exchange a column and a row, and the second matrix
  product takes the prototypes first.
-/
import proofs.«153007_j24790551232582_2_alg».proof.Proof.Gen.KernelIdeal.Skeleton
import proofs.«153007_j24790551232582_2_alg».proof.Proof.Spec
import proofs.«153007_j24790551232582_2_alg».proof.Proof.LibColumns
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Cdist.Body

open Cert.KernelIdeal Cert.KernelIdeal.Gen Idealize.ShloMosaic Idealize.ShloMosaic.ValueIdx Cert.Cdist Cert.Lib.Columns

/-- The feature block's column of squared norms: the lane sum of the elementwise square, recast as a column, reads at
    row `r` the squared norm of the block's row `r`. -/
theorem featCol_apply (x0 : FVec Ideal S2048x256 .f32) (r : Fin 2048) (u : Fin 1) :
    k0_pay3 (F := Ideal) x0 (ix2 r u) = rowSq x0 r := by
  unfold k0_pay3
  refine (shapeCast_a_a1_apply _ shapeCasts_S2048_S2048x1 r u).trans ?_
  exact multiReduction_add_ab_a_apply (mulf x0 x0) 0x00000000#32 reduces_S2048x256_S2048 (.inl rfl) rfl r

/-- The loaded row of prototype norms passes through its cast to the same shape unchanged. -/
theorem protoRow_eq (x7 : FVec Ideal S1x512 .f32) : k0_pay4 (F := Ideal) x7 = x7 := by
  unfold k0_pay4
  exact shapeCast_self x7 shapeCasts_S1x512_S1x512

/-! ## The two matrix products -/

theorem lhsA_0 (i : S2048x512.Idx) (k : dot_S2048x256_S512x256_S2048x512_1_1_0_0_n_n.contr.Idx) :
    (dot_S2048x256_S512x256_S2048x512_1_1_0_0_n_n.lhsIdx i k 0).val = (i 0).val := by
  unfold DotDims.lhsIdx
  rw [dif_neg (show ¬(0 : Fin S2048x256.rank) ∈ dot_S2048x256_S512x256_S2048x512_1_1_0_0_n_n.lhsBatch by decide), dif_pos (show (0 : Fin S2048x256.rank) ∈ dot_S2048x256_S512x256_S2048x512_1_1_0_0_n_n.lhsNonContracting by decide)]
  rfl
theorem rhsA_0 (i : S2048x512.Idx) (k : dot_S2048x256_S512x256_S2048x512_1_1_0_0_n_n.contr.Idx) :
    (dot_S2048x256_S512x256_S2048x512_1_1_0_0_n_n.rhsIdx i k 0).val = (i 1).val := by
  unfold DotDims.rhsIdx
  rw [dif_neg (show ¬(0 : Fin S512x256.rank) ∈ dot_S2048x256_S512x256_S2048x512_1_1_0_0_n_n.rhsBatch by decide), dif_pos (show (0 : Fin S512x256.rank) ∈ dot_S2048x256_S512x256_S2048x512_1_1_0_0_n_n.rhsNonContracting by decide)]
  rfl

/-- The first product at (r, q): the inner product of the block's row r with prototype row q. -/
theorem crossA_apply (x0 : FVec Ideal S2048x256 .f32) (x1 : FVec Ideal S512x256 .f32) (r : Fin 2048) (q : Fin 512) :
    matmul dot_S2048x256_S512x256_S2048x512_1_1_0_0_n_n none (k0_pay1 (F := Ideal) x0) (k0_pay2 (F := Ideal) x1)
      (constant S2048x512 .f32 0x00000000#32) (ix2 r q) = rowDot x0 x1 r q := by
  simp only [matmul]
  rw [Ideal.matmul_constant_zero_apply, ← Equiv.sum_comp (contrEquiv1 dot_S2048x256_S512x256_S2048x512_1_1_0_0_n_n 256 rfl rfl).symm]
  refine Finset.sum_congr rfl fun k _ => ?_
  have hk := contrEquiv1_symm_val dot_S2048x256_S512x256_S2048x512_1_1_0_0_n_n 256 rfl rfl k
  have el : dot_S2048x256_S512x256_S2048x512_1_1_0_0_n_n.lhsIdx (ix2 r q) ((contrEquiv1 dot_S2048x256_S512x256_S2048x512_1_1_0_0_n_n 256 rfl rfl).symm k) = ix2 r k := funext fun a => Fin.ext (by
    match a with
    | ⟨0, _⟩ => exact lhsA_0 _ _
    | ⟨1, _⟩ => exact (dot_S2048x256_S512x256_S2048x512_1_1_0_0_n_n.lhsIdx_val_of_single rfl _ _).trans hk)
  have er : dot_S2048x256_S512x256_S2048x512_1_1_0_0_n_n.rhsIdx (ix2 r q) ((contrEquiv1 dot_S2048x256_S512x256_S2048x512_1_1_0_0_n_n 256 rfl rfl).symm k) = ix2 q k := funext fun a => Fin.ext (by
    match a with
    | ⟨0, _⟩ => exact rhsA_0 _ _
    | ⟨1, _⟩ => exact (dot_S2048x256_S512x256_S2048x512_1_1_0_0_n_n.rhsIdx_val_of_single rfl _ _).trans hk)
  rw [el, er]
  rfl

theorem lhsB_0 (i : S512x2048.Idx) (k : dot_S512x256_S2048x256_S512x2048_1_1_0_0_n_n.contr.Idx) :
    (dot_S512x256_S2048x256_S512x2048_1_1_0_0_n_n.lhsIdx i k 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem rhsB_0 (i : S512x2048.Idx) (k : dot_S512x256_S2048x256_S512x2048_1_1_0_0_n_n.contr.Idx) :
    (dot_S512x256_S2048x256_S512x2048_1_1_0_0_n_n.rhsIdx i k 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl

/-- The second product at (q, r): the inner product of prototype row q with the block's row r. -/
theorem crossB_apply (x0 : FVec Ideal S2048x256 .f32) (x1 : FVec Ideal S512x256 .f32) (q : Fin 512) (r : Fin 2048) :
    matmul dot_S512x256_S2048x256_S512x2048_1_1_0_0_n_n none (k0_pay2 (F := Ideal) x1) (k0_pay1 (F := Ideal) x0)
      (constant S512x2048 .f32 0x00000000#32) (ix2 q r) = rowDot x1 x0 q r := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 q r) ((contrEquiv1 dot_S512x256_S2048x256_S512x2048_1_1_0_0_n_n 256 rfl rfl).symm k) = ix2 q k := funext fun a => Fin.ext (by
    match a with
    | ⟨0, _⟩ => exact lhsB_0 _ _
    | ⟨1, _⟩ => exact (dot_S512x256_S2048x256_S512x2048_1_1_0_0_n_n.lhsIdx_val_of_single rfl _ _).trans hk)
  have er : dot_S512x256_S2048x256_S512x2048_1_1_0_0_n_n.rhsIdx (ix2 q r) ((contrEquiv1 dot_S512x256_S2048x256_S512x2048_1_1_0_0_n_n 256 rfl rfl).symm k) = ix2 r k := funext fun a => Fin.ext (by
    match a with
    | ⟨0, _⟩ => exact rhsB_0 _ _
    | ⟨1, _⟩ => exact (dot_S512x256_S2048x256_S512x2048_1_1_0_0_n_n.rhsIdx_val_of_single rfl _ _).trans hk)
  rw [el, er]
  rfl

/-! ## The two stores -/

/-- The first store at (r, q). -/
theorem toProtos_block (x0 : FVec Ideal S2048x256 .f32) (x1 : FVec Ideal S512x256 .f32) (x7 : FVec Ideal S1x512 .f32)
    (r : Fin 2048) (q : Fin 512) :
    k0_pay5 (F := Ideal) x0 x1 x7 (ix2 r q) = dist (rowSq x0 r) (x7 (ix2 (0 : Fin 1) q)) (rowDot x0 x1 r q) := by
  unfold k0_pay5
  show (broadcastTo S2048x512 (k0_pay3 x0) broadcasts_S2048x1_S2048x512 (ix2 r q)
      + broadcastTo S2048x512 (k0_pay4 x7) broadcasts_S1x512_S2048x512 (ix2 r q))
      - Ideal.ofBits .f32 0x40000000#32 * matmul dot_S2048x256_S512x256_S2048x512_1_1_0_0_n_n none (k0_pay1 x0) (k0_pay2 x1)
          (constant S2048x512 .f32 0x00000000#32) (ix2 r q) = _
  rw [crossA_apply, broadcastTo_a1_ab_apply (k0_pay3 (F := Ideal) x0) broadcasts_S2048x1_S2048x512 r q, featCol_apply,
    broadcastTo_1b_ab_apply (k0_pay4 (F := Ideal) x7) broadcasts_S1x512_S2048x512 r q, protoRow_eq]
  rfl

/-- The second store at (q, r). -/
theorem toLatents_block (x0 : FVec Ideal S2048x256 .f32) (x1 : FVec Ideal S512x256 .f32) (x7 : FVec Ideal S1x512 .f32)
    (q : Fin 512) (r : Fin 2048) :
    k0_pay6 (F := Ideal) x0 x1 x7 (ix2 q r) = dist (x7 (ix2 (0 : Fin 1) q)) (rowSq x0 r) (rowDot x1 x0 q r) := by
  unfold k0_pay6
  show (broadcastTo S512x2048 (transpose S512x1 [1, 0] (k0_pay4 x7) transposes_S1x512_p1_0_S512x1) broadcasts_S512x1_S512x2048 (ix2 q r)
      + broadcastTo S512x2048 (transpose S1x2048 [1, 0] (k0_pay3 x0) transposes_S2048x1_p1_0_S1x2048) broadcasts_S1x2048_S512x2048 (ix2 q r))
      - Ideal.ofBits .f32 0x40000000#32 * matmul dot_S512x256_S2048x256_S512x2048_1_1_0_0_n_n none (k0_pay2 x1) (k0_pay1 x0)
          (constant S512x2048 .f32 0x00000000#32) (ix2 q r) = _
  rw [crossB_apply, broadcastTo_a1_ab_apply _ broadcasts_S512x1_S512x2048 q r,
    transpose_ix2_apply (k0_pay4 (F := Ideal) x7) transposes_S1x512_p1_0_S512x1 q (0 : Fin 1), protoRow_eq,
    broadcastTo_1b_ab_apply _ broadcasts_S1x2048_S512x2048 q r,
    transpose_ix2_apply (k0_pay3 (F := Ideal) x0) transposes_S2048x1_p1_0_S1x2048 (0 : Fin 1) r, featCol_apply]
  rfl

end Cert.Cdist.Body

end
-- ==== Proof.HostPrefix.lean ====
/-
  The row of prototype squared norms as the kernel's region finds it. Before the region the program squares the
  prototypes elementwise, sums each row on the host starting from the zero word, keeps the 512 sums as a column and
  transposes the column into a row. So the row's entry q is the squared norm of prototype row q.
-/
import proofs.«153007_j24790551232582_2_alg».proof.Proof.Gen.KernelIdeal.Frame
import proofs.«153007_j24790551232582_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

open scoped BigOperators

noncomputable section

namespace Cert.Cdist.Host

open Cert.KernelIdeal Cert.KernelIdeal.Gen Idealize.ShloMosaic Idealize.ShloMosaic.TcCoe Idealize.ShloMosaic.ValueIdx
open Idealize.SL.Sem Idealize.ShloMosaic.StableHlo Cert.Cdist

/-- The host's sum of each row of the elementwise square, from the zero word: the row's squared norm. -/
theorem hostSq_apply (x : FVec Ideal S512x256 .f32) (q : Fin 512) :
    Host.reduceAdd (F := Ideal) (mulf x x) (constant (F := Ideal) S_ .f32 0x00000000#32) reducesTo_S512x256_S512_d1 h_S_ (ix1 q)
      = rowSq x q := by
  simp only [Host.reduceAdd, Ideal.hostReduceAdd_def]
  rw [Ideal.hostReduceAdd_single reducesTo_S512x256_S512_d1 (by decide)]
  show Ideal.ofBits .f32 0x00000000#32 + _ = _
  rw [Ideal.ofBits_zero_f32, zero_add]
  exact Finset.sum_congr rfl fun k _ => congrArg (fun i => x i * x i)
    (funext fun a => Fin.ext (by match a with | ⟨0, _⟩ => rfl | ⟨1, _⟩ => rfl))

/-- The column of sums transposed into a row reads, at (0, q), the sum of row q. -/
theorem normsRow_term_apply (y : FVec Ideal S512 .f32) (u : Fin 1) (q : Fin 512) :
    transpose S1x512 [1, 0] (broadcastInDim S512x1 ![0] bcast_S512_S512x1_0 y) transposes_S512x1_S1x512_1_0 (ix2 u q) = y (ix1 q) := by
  refine (transpose_ix2_apply (broadcastInDim S512x1 ![0] bcast_S512_S512x1_0 y) transposes_S512x1_S1x512_1_0 u q).trans ?_
  exact broadcastInDim_apply _ bcast_S512_S512x1_0 y (ix2 q u) (ix1 q) (fun a => match a with
    | ⟨0, _⟩ => by show q.val = if (512 : Nat) = 1 then 0 else q.val; rw [if_neg (by decide)])

variable (m : (ℓ : Loc nD τ sig) → Buf (Elt Ideal) ℓ)

/-- The norms' row at region entry is the host operations' term of the prototypes as launched. -/
theorem normsRow_eq (c : Dev nD) :
    (V m c main_v3 : S1x512.Idx → EReal)
      = transpose S1x512 [1, 0] (broadcastInDim S512x1 ![0] bcast_S512_S512x1_0
          (Host.reduceAdd (F := Ideal) (mulf (m ((c : Thread nD τ).loc main_arg1)) (m ((c : Thread nD τ).loc main_arg1)))
            (constant (F := Ideal) S_ .f32 0x00000000#32) reducesTo_S512x256_S512_d1 h_S_)) transposes_S512x1_S1x512_1_0 := by
  dsimp only [Gen.V, Gen.hostOps0]
  after_results

/-- Entry q of the norms' row at region entry is the squared norm of prototype row q as launched. -/
theorem normsRow_apply (c : Dev nD) (u : Fin 1) (q : Fin 512) :
    (V m c main_v3 : S1x512.Idx → EReal) (ix2 u q) = rowSq (m ((c : Thread nD τ).loc main_arg1) : S512x256.Idx → EReal) q := by
  rw [normsRow_eq, normsRow_term_apply, hostSq_apply]

end Cert.Cdist.Host

end
-- ==== Proof.Blocks.lean ====
/-
  From what each grid point writes back to the two whole result arrays. Point t stages feature rows 2048·t … 2048·t + 2047,
  all the prototypes and the whole row of prototype norms, and writes back rows 2048·t … of the first result and columns
  2048·t … of the second. What the body leaves for the first is, at (r, q) inside the block, the distance of feature row
  2048·t + r to prototype row q; for the second, at (q, r), the distance of prototype row q to feature row 2048·t + r. These
  are the two distance tables read through the point's blocks, and the 32 blocks tile each array: row i of the first
  (column i of the second) lies in the block of point i / 2048. So each array ends holding its whole table.
-/
import proofs.«153007_j24790551232582_2_alg».proof.Proof.Gen.KernelIdeal.Value
import proofs.«153007_j24790551232582_2_alg».proof.Proof.Payload
import proofs.«153007_j24790551232582_2_alg».proof.Proof.HostPrefix
import Idealize.ShloMosaic.Lib.Pipeline.Value
import Idealize.ShloMosaic.Lib.Tactic

open scoped BigOperators

noncomputable section

namespace Cert.Cdist.Blocks

open Cert.KernelIdeal Cert.KernelIdeal.Gen Idealize.ShloMosaic Idealize.ShloMosaic.TcCoe Idealize.ShloMosaic.ValueIdx
open Idealize.SL.Sem Cert.Cdist
open Idealize.ShloMosaic.Pipeline (Dat)

/-! ## One point, over variables -/

/-- The first store of a body whose loaded feature block is rows `2048·b …` of `f`, whose prototype block is `p` and whose
    norms' row holds the squared norms of `p`'s rows: at `j` it is the first table at the index `i` that lies `2048·b` rows
    below `j`. -/
theorem point_toProtos (f : S65536x256.Idx → EReal) (p : S512x256.Idx → EReal)
    (x0 : FVec Ideal S2048x256 .f32) (x1 : FVec Ideal S512x256 .f32) (x7 : FVec Ideal S1x512 .f32) (b : ℕ)
    (h0 : ∀ (y : S2048x256.Idx) (z : S65536x256.Idx), (z 0).val = b * 2048 + (y 0).val → (z 1).val = (y 1).val → x0 y = f z)
    (h1 : ∀ y : S512x256.Idx, x1 y = p y)
    (h7 : ∀ (u : Fin 1) (q : Fin 512), x7 (ix2 u q) = rowSq p q)
    (j : S2048x512.Idx) (i : S65536x512.Idx) (hi0 : (i 0).val = b * 2048 + (j 0).val) (hi1 : (i 1).val = (j 1).val) :
    k0_pay5 (F := Ideal) x0 x1 x7 j = toProtos f p i := by
  obtain ⟨r, q, rfl⟩ : ∃ (r : Fin 2048) (q : Fin 512), j = ix2 r q := ⟨j 0, j 1, eq_ix2 j⟩
  obtain ⟨a, q', rfl⟩ : ∃ (a : Fin 65536) (q' : Fin 512), i = ix2 a q' := ⟨i 0, i 1, eq_ix2 i⟩
  obtain rfl : q' = q := Fin.ext hi1
  obtain rfl : x1 = p := funext h1
  rw [Body.toProtos_block, h7]
  show dist (rowSq x0 r) (rowSq x1 q') (rowDot x0 x1 r q') = dist (rowSq f a) (rowSq x1 q') (rowDot f x1 a q')
  have e : ∀ k : Fin 256, x0 (ix2 r k) = f (ix2 a k) := fun k => h0 (ix2 r k) (ix2 a k) hi0 rfl
  have es : rowSq x0 r = rowSq f a := Finset.sum_congr rfl fun k _ => by rw [e k]
  have ed : rowDot x0 x1 r q' = rowDot f x1 a q' := Finset.sum_congr rfl fun k _ => by rw [e k]
  rw [es, ed]

/-- The second store of such a body: at `j` it is the second table at the index `i` that lies `2048·b` columns to the
    right of `j`. -/
theorem point_toLatents (f : S65536x256.Idx → EReal) (p : S512x256.Idx → EReal)
    (x0 : FVec Ideal S2048x256 .f32) (x1 : FVec Ideal S512x256 .f32) (x7 : FVec Ideal S1x512 .f32) (b : ℕ)
    (h0 : ∀ (y : S2048x256.Idx) (z : S65536x256.Idx), (z 0).val = b * 2048 + (y 0).val → (z 1).val = (y 1).val → x0 y = f z)
    (h1 : ∀ y : S512x256.Idx, x1 y = p y)
    (h7 : ∀ (u : Fin 1) (q : Fin 512), x7 (ix2 u q) = rowSq p q)
    (j : S512x2048.Idx) (i : S512x65536.Idx) (hi0 : (i 0).val = (j 0).val) (hi1 : (i 1).val = b * 2048 + (j 1).val) :
    k0_pay6 (F := Ideal) x0 x1 x7 j = toLatents f p i := by
  obtain ⟨q, r, rfl⟩ : ∃ (q : Fin 512) (r : Fin 2048), j = ix2 q r := ⟨j 0, j 1, eq_ix2 j⟩
  obtain ⟨q', a, rfl⟩ : ∃ (q' : Fin 512) (a : Fin 65536), i = ix2 q' a := ⟨i 0, i 1, eq_ix2 i⟩
  obtain rfl : q' = q := Fin.ext hi0
  obtain rfl : x1 = p := funext h1
  rw [Body.toLatents_block, h7]
  show dist (rowSq x1 q') (rowSq x0 r) (rowDot x1 x0 q' r) = dist (rowSq x1 q') (rowSq f a) (rowDot x1 f q' a)
  have e : ∀ k : Fin 256, x0 (ix2 r k) = f (ix2 a k) := fun k => h0 (ix2 r k) (ix2 a k) hi1 rfl
  have es : rowSq x0 r = rowSq f a := Finset.sum_congr rfl fun k _ => by rw [e k]
  have ed : rowDot x1 x0 q' r = rowDot x1 f q' a := Finset.sum_congr rfl fun k _ => by rw [e k]
  rw [es, ed]

/-! ## The windows' blocks at a point -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 points: the features and the first result move down one block of rows per
    point, the second result one block of columns, the prototypes and the norms' row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The feature block at point `t` is rows `2048·t …` of the features as launched. -/
theorem featBlock_apply (c : Dev nD) (t : Fin cfg0.N) (y : S2048x256.Idx) (z : S65536x256.Idx)
    (hz0 : (z 0).val = t.val * 2048 + (y 0).val) (hz1 : (z 1).val = (y 1).val) :
    (iblk m c 0 t : S2048x256.Idx → EReal) y = (m ((c : Thread nD τ).loc main_arg0) : S65536x256.Idx → EReal) z := by
  obtain ⟨e0, e1, -⟩ := idx_facts t
  show V m c main_arg0 (((cfg0.win 0).blk t).view.emb y) = _
  have hi : ((cfg0.win 0).blk t).view.emb y = z := by
    funext a; apply Fin.ext
    match a with
    | ⟨0, _⟩ => show win0_0.index t (0 : Fin 2) * 2048 + 1 * (y 0).val = (z 0).val; omega
    | ⟨1, _⟩ => show win0_0.index t (1 : Fin 2) * 256 + 1 * (y 1).val = (z 1).val; omega
  rw [hi, V_main_arg0]

/-- The prototype block at every point is the prototypes as launched. -/
theorem protoBlock_apply (c : Dev nD) (t : Fin cfg0.N) (y : S512x256.Idx) :
    (iblk m c 1 t : S512x256.Idx → EReal) y = (m ((c : Thread nD τ).loc main_arg1) : S512x256.Idx → EReal) y := by
  obtain ⟨-, -, e0, e1, -⟩ := idx_facts t
  show V m c main_arg1 (((cfg0.win 1).blk t).view.emb y) = _
  have hi : ((cfg0.win 1).blk t).view.emb y = y := by
    funext a; apply Fin.ext
    match a with
    | ⟨0, _⟩ => show win0_1.index t (0 : Fin 2) * 512 + 1 * (y 0).val = (y 0).val; omega
    | ⟨1, _⟩ => show win0_1.index t (1 : Fin 2) * 256 + 1 * (y 1).val = (y 1).val; omega
  rw [hi, V_main_arg1]

/-- The norms' block at every point holds the squared norms of the prototype rows as launched. -/
theorem normsBlock_apply (c : Dev nD) (t : Fin cfg0.N) (u : Fin 1) (q : Fin 512) :
    (iblk m c 2 t : S1x512.Idx → EReal) (ix2 u q) = rowSq (m ((c : Thread nD τ).loc main_arg1) : S512x256.Idx → EReal) q := by
  obtain ⟨-, -, -, -, e0, e1, -⟩ := idx_facts t
  show V m c main_v3 (((cfg0.win 2).blk t).view.emb (ix2 u q)) = _
  have hi : ((cfg0.win 2).blk t).view.emb (ix2 u q) = ix2 u q := by
    funext a; apply Fin.ext
    match a with
    | ⟨0, _⟩ => show win0_2.index t (0 : Fin 2) * 1 + 1 * u.val = u.val; omega
    | ⟨1, _⟩ => show win0_2.index t (1 : Fin 2) * 512 + 1 * q.val = q.val; omega
  rw [hi]
  exact Host.normsRow_apply m c u q

/-! ## The first result -/

/-- What point `t` writes back to the first result is block `t` of the first table of the arguments as launched. -/
theorem flushed3_eq (c : Dev nD) (t : Fin cfg0.N) :
    (dats m 0 c).flushed 3 t = ((cfg0.win 3).blk t).view.read (Elt Ideal)
      (toProtos (m ((c : Thread nD τ).loc main_arg0)) (m ((c : Thread nD τ).loc main_arg1))) := by
  rw [Cert.KernelIdeal.Value.flushed3]
  unfold out0_3
  rw [View.canon_unit_zero hz]
  simp only [View.ld_unit_zero (S := S2048x256) hz, View.ld_unit_zero (S := S512x256) hz, View.ld_unit_zero (S := S1x512) hz]
  obtain ⟨-, -, -, -, -, -, e0, e1, -⟩ := idx_facts t
  funext j
  show k0_pay5 (F := Ideal) (iblk m c 0 t) (iblk m c 1 t) (iblk m c 2 t) j
    = toProtos (m ((c : Thread nD τ).loc main_arg0)) (m ((c : Thread nD τ).loc main_arg1)) (((cfg0.win 3).blk t).view.emb j)
  exact point_toProtos (m ((c : Thread nD τ).loc main_arg0)) (m ((c : Thread nD τ).loc main_arg1))
    (iblk m c 0 t) (iblk m c 1 t) (iblk m c 2 t) t.val
    (featBlock_apply m c t) (protoBlock_apply m c t) (normsBlock_apply m c t) j (((cfg0.win 3).blk t).view.emb j)
    (by show win0_3.index t (0 : Fin 2) * 2048 + 1 * (j 0).val = t.val * 2048 + (j 0).val; omega)
    (by show win0_3.index t (1 : Fin 2) * 512 + 1 * (j 1).val = (j 1).val; omega)

/-- An index of the first result is in point `t`'s block iff each coordinate is in the block's range on its axis. -/
theorem mem_blk3 (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v4_0).slice (win0_3.rect t)).set ↔ _
  rw [View.set_slice_whole, Rect.mem_set_unit]
  exact Iff.rfl

/-- Every index of the first result lies in the block of the point its row falls in. -/
theorem cover3 (i : S65536x512.Idx) : ∃ t : Fin cfg0.N, (cfg0.win 3).flush t = true ∧ i ∈ ((cfg0.win 3).blk t).view.set := by
  have hi0 : (i 0).val < 65536 := (i 0).isLt
  have hi1 : (i 1).val < 512 := (i 1).isLt
  have hN : grid0.N = 32 := N_0
  let t : Fin cfg0.N := ⟨(i 0).val / 2048, by show (i 0).val / 2048 < grid0.N; omega⟩
  have ht : t.val = (i 0).val / 2048 := rfl
  obtain ⟨-, -, -, -, -, -, e0, e1, -⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The first result after the run is the first table. -/
theorem final3 (c : Dev nD) : (dats m 0 c).arrAt 3 cfg0.N
    = toProtos (m ((c : Thread nD τ).loc main_arg0)) (m ((c : Thread nD τ).loc main_arg1)) :=
  (dats m 0 c).arrAt_eq_of_cover 3 _ (fun t _ => flushed3_eq m c t) cover3

/-! ## The second result -/

/-- What point `t` writes back to the second result is block `t` of the second table of the arguments as launched. -/
theorem flushed4_eq (c : Dev nD) (t : Fin cfg0.N) :
    (dats m 0 c).flushed 4 t = ((cfg0.win 4).blk t).view.read (Elt Ideal)
      (toLatents (m ((c : Thread nD τ).loc main_arg0)) (m ((c : Thread nD τ).loc main_arg1))) := by
  rw [Cert.KernelIdeal.Value.flushed4]
  unfold out0_4
  rw [View.canon_unit_zero hz]
  simp only [View.ld_unit_zero (S := S2048x256) hz, View.ld_unit_zero (S := S512x256) hz, View.ld_unit_zero (S := S1x512) hz]
  obtain ⟨-, -, -, -, -, -, -, -, e0, e1⟩ := idx_facts t
  funext j
  show k0_pay6 (F := Ideal) (iblk m c 0 t) (iblk m c 1 t) (iblk m c 2 t) j
    = toLatents (m ((c : Thread nD τ).loc main_arg0)) (m ((c : Thread nD τ).loc main_arg1)) (((cfg0.win 4).blk t).view.emb j)
  exact point_toLatents (m ((c : Thread nD τ).loc main_arg0)) (m ((c : Thread nD τ).loc main_arg1))
    (iblk m c 0 t) (iblk m c 1 t) (iblk m c 2 t) t.val
    (featBlock_apply m c t) (protoBlock_apply m c t) (normsBlock_apply m c t) j (((cfg0.win 4).blk t).view.emb j)
    (by show win0_4.index t (0 : Fin 2) * 512 + 1 * (j 0).val = (j 0).val; omega)
    (by show win0_4.index t (1 : Fin 2) * 2048 + 1 * (j 1).val = t.val * 2048 + (j 1).val; omega)

/-- An index of the second result is in point `t`'s block iff each coordinate is in the block's range on its axis. -/
theorem mem_blk4 (t : Fin cfg0.N) (i : S512x65536.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v4_1).slice (win0_4.rect t)).set ↔ _
  rw [View.set_slice_whole, Rect.mem_set_unit]
  exact Iff.rfl

/-- Every index of the second result lies in the block of the point its column falls in. -/
theorem cover4 (i : S512x65536.Idx) : ∃ t : Fin cfg0.N, (cfg0.win 4).flush t = true ∧ i ∈ ((cfg0.win 4).blk t).view.set := by
  have hi0 : (i 0).val < 512 := (i 0).isLt
  have hi1 : (i 1).val < 65536 := (i 1).isLt
  have hN : grid0.N = 32 := N_0
  let t : Fin cfg0.N := ⟨(i 1).val / 2048, by show (i 1).val / 2048 < grid0.N; omega⟩
  have ht : t.val = (i 1).val / 2048 := rfl
  obtain ⟨-, -, -, -, -, -, -, -, e0, e1⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The second result after the run is the second table. -/
theorem final4 (c : Dev nD) : (dats m 0 c).arrAt 4 cfg0.N
    = toLatents (m ((c : Thread nD τ).loc main_arg0)) (m ((c : Thread nD τ).loc main_arg1)) :=
  (dats m 0 c).arrAt_eq_of_cover 4 _ (fun t _ => flushed4_eq m c t) cover4

/-! ## The run, read -/

/-- Every weakly fair execution of the kernel's program ends with the two results at the two distance tables of the
    arguments as launched, the arguments unchanged. -/
theorem run : θ_run defs (onTc (τ := τ) (main (F := Ideal))) ⟨m, fun _ => 0, ρ⟩ fun r => ∀ c : Dev nD,
      r.2.mem ((c : Thread nD τ).loc main_v4_0) = toProtos (m ((c : Thread nD τ).loc main_arg0)) (m ((c : Thread nD τ).loc main_arg1))
      ∧ r.2.mem ((c : Thread nD τ).loc main_v4_1) = toLatents (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c), (h c).2.2⟩)
    (Cert.KernelIdeal.Value.run_blocks m ρ)

end Cert.Cdist.Blocks

end
-- ==== Proof.lean ====
/-
  Squared Euclidean distances between 65536 feature rows and 512 prototype rows of length 256, in both directions, by the
  expansion |f|² + |p|² − 2 f·p. The kernel's program sums the prototypes' squares on the host, then at each of 32 grid
  points takes 2048 feature rows, sums their squares along the lanes, forms the two matrix products f·pᵀ and p·fᵀ of the
  block with the prototypes, and writes one block of rows of the first table and one block of columns of the second. The
  reference sums both squared norms on the host, forms one product f·pᵀ and uses its transpose for the second table.
  Over the extended reals both compute, entry by entry, (|f_r|² + |p_q|²) − 2·Σ_k f_{r,k} p_{q,k} for the first table and
  (|p_q|² + |f_r|²) − 2·Σ_k p_{q,k} f_{r,k} for the second: the lane sum and the host sum are the same finite sum (the zero
  word each starts from is 0), the two matrix products are the same sums of products, and the only difference, the order
  of the two factors in the second table's cross term, is commutativity of multiplication. No finiteness is used: sums and
  products of extended reals are commutative everywhere, and the literal 2.0 is the same word on both sides.
  The frames of the two kernel programs are the generated ones, the reference's frame is its generated run with the
  results dropped, and the idealization rewrote nothing.
-/
import proofs.«153007_j24790551232582_2_alg».proof.Defs
import proofs.«153007_j24790551232582_2_alg».proof.Proof.Gen.Kernel
import proofs.«153007_j24790551232582_2_alg».proof.Proof.Gen.Kernel.Skeleton
import proofs.«153007_j24790551232582_2_alg».proof.Proof.Gen.Kernel.Launch
import proofs.«153007_j24790551232582_2_alg».proof.Proof.Gen.Kernel.Points
import proofs.«153007_j24790551232582_2_alg».proof.Proof.Gen.Kernel.Frame
import proofs.«153007_j24790551232582_2_alg».proof.Proof.Gen.KernelIdeal
import proofs.«153007_j24790551232582_2_alg».proof.Proof.Gen.KernelIdeal.Skeleton
import proofs.«153007_j24790551232582_2_alg».proof.Proof.Gen.KernelIdeal.Launch
import proofs.«153007_j24790551232582_2_alg».proof.Proof.Gen.KernelIdeal.Points
import proofs.«153007_j24790551232582_2_alg».proof.Proof.Gen.KernelIdeal.Frame
import proofs.«153007_j24790551232582_2_alg».proof.Proof.Gen.ReferenceIdeal
import proofs.«153007_j24790551232582_2_alg».proof.Proof.Gen.Pre_finite_inputs
import proofs.«153007_j24790551232582_2_alg».proof.Proof.Gen.KernelIdeal.Value
import proofs.«153007_j24790551232582_2_alg».proof.Proof.Gen.ReferenceIdeal.Run
import proofs.«153007_j24790551232582_2_alg».proof.Proof.Gen.ReferenceIdeal.Read
import proofs.«153007_j24790551232582_2_alg».proof.Proof.RefSpec
import proofs.«153007_j24790551232582_2_alg».proof.Proof.Blocks
import Idealize.ShloMosaic.Adequacy
import Idealize.ShloMosaic.Init

noncomputable section

namespace Cert.Proof

open Idealize.ShloMosaic Idealize.SL.Sem

/-- The kernel's program as printed terminates without a fault and leaves its arguments unchanged. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference's run, with what it says about the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the features and the prototypes, the kernel's program ends with its two results at the
    two distance tables of its arguments, and the reference's results, read one operation at a time, are the same two
    tables of the same arguments. -/
theorem algebraic : Cert.algebraic_KernelIdeal_ReferenceIdeal := by
  intro m ρ m' ρ' _ hagree
  refine ⟨_, _, Cert.Cdist.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v13_eq, Cert.Cdist.Ref.toProtos_eq, (hagree c).1, (hagree c).2]
  · rw [(h c).2.1, Cert.ReferenceIdeal.Read.val_main_v22_eq, Cert.Cdist.Ref.toLatents_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
